-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64 .f32) (main_arg9 : FVec F S64x2 .f32) (main_arg10 : FVec F S2 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x2 .f32 := Host.absf main_arg9
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x64 .f32) (main_arg8 : FVec F S64 .f32) (main_arg9 : FVec F S64x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S1x2 : Shape := ⟨2, ![1, 2]⟩
abbrev S100000x2 : Shape := ⟨2, ![100000, 2]⟩
abbrev S5000x2 : Shape := ⟨2, ![5000, 2]⟩
abbrev S5000x64 : Shape := ⟨2, ![5000, 64]⟩

abbrev nBuf : Space → Nat
  | .hbm => 58
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x1, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S1x1600000, .i32⟩
  | .hbm, ⟨34, _⟩ => ⟨S1600000, .i32⟩
  | .hbm, ⟨35, _⟩ => ⟨S1x1600000, .i32⟩
  | .hbm, ⟨36, _⟩ => ⟨S1600000, .i32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S1600000x1, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S1x64, .f32⟩
  | .hbm, ⟨56, _⟩ => ⟨S1x2, .f32⟩
  | .hbm, ⟨57, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S1x64, .f32⟩
  | .local _ .vmem, ⟨20, _⟩ => ⟨S64x2, .f32⟩
  | .local _ .vmem, ⟨21, _⟩ => ⟨S1x2, .f32⟩
  | .local _ .vmem, ⟨22, _⟩ => ⟨S5000x2, .f32⟩
  | .local _ .vmem, ⟨23, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  shapeCasts_S2_S1x2 : S2.ShapeCasts S1x2
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S100000x2.size a
  hwx2_5 : ∀ i : grid2.Coords, EltTy.bits .f32 = 32 ∨ (Rect.block (s := S100000x2) S5000x2.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .hbm, ⟨23, _⟩ => ⟨S1600000x128, .f32⟩
  | .hbm, ⟨24, _⟩ => ⟨S1600000x128, .f32⟩
  | .hbm, ⟨25, _⟩ => ⟨S1x1600000, .i32⟩
  | .hbm, ⟨26, _⟩ => ⟨S1600000, .i32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S1x1600000, .i32⟩
  | .hbm, ⟨40, _⟩ => ⟨S1600000, .i32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S1x1600000, .i32⟩
  | .hbm, ⟨54, _⟩ => ⟨S1600000, .i32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x2, .f32⟩
  | .hbm, ⟨75, _⟩ => ⟨S1x2, .f32⟩
  | .hbm, ⟨76, _⟩ => ⟨S100000x2, .f32⟩
  | .hbm, ⟨77, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call2_cst : Ref sig .tc := ⟨.hbm, 71, rfl⟩
abbrev main_call2_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S2x1600000_S1x1600000_1_0 : S2x1600000.Slices ![1, 0] S1x1600000
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.GcnSpec.lean ====
/-
  The function both programs compute, stated index by index on the extended reals.

  A node array `x` of 100000 rows and 128 columns goes through two rounds of the same step and then a classifier:

    * a round adds to `x` its aggregate `agg x` (a weighted sum over the rows that the edge list sends to each node; both
      programs obtain it from the same host operations, so here it is a parameter), multiplies the sum by a 128×128
      weight matrix, adds a bias row and takes the maximum with zero:
        layer a x W b (r, c) = max (∑ₖ (a (r, k) + x (r, k)) · W (k, c) + b c) 0;
    * the classifier multiplies by a 128×64 matrix, adds a bias row, takes the maximum with zero, multiplies by a 64×2
      matrix and adds a bias row:
        head x U u V v (r, c) = ∑ₖ max (∑ⱼ x (r, j) · U (j, k) + u k) 0 · V (k, c) + v c.

  The zero is kept as the float word both programs print; it is never evaluated.
-/
import Idealize.ShloMosaic.PureOps.Ideal
import Idealize.ShloMosaic.Lib.ValueIdx

noncomputable section

namespace Cert.Gcn

open Idealize.ShloMosaic Idealize.ShloMosaic.ValueIdx

/-- The zero both programs take the maximum with. -/
abbrev zero : EReal := Ideal.ofBits .f32 0x00000000#32

/-- One round: the aggregate `a` and the node array `x` are added, multiplied by `W`, shifted by the bias row `b` and
    rectified. -/
def layer (a x : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => max (∑ k : Fin 128, (a (ix2 (i 0) k) + x (ix2 (i 0) k)) * W (ix2 k (i 1)) + b (ix1 (i 1))) zero

/-- The classifier: a rectified affine map to 64 columns, then an affine map to 2 columns. -/
def head (x : (⟨2, ![100000, 128]⟩ : Shape).Idx → EReal) (U : (⟨2, ![128, 64]⟩ : Shape).Idx → EReal)
    (u : (⟨1, ![64]⟩ : Shape).Idx → EReal) (V : (⟨2, ![64, 2]⟩ : Shape).Idx → EReal)
    (v : (⟨1, ![2]⟩ : Shape).Idx → EReal) : (⟨2, ![100000, 2]⟩ : Shape).Idx → EReal :=
  fun i => ∑ k : Fin 64, max (∑ j : Fin 128, x (ix2 (i 0) j) * U (ix2 j k) + u (ix1 k)) zero * V (ix2 k (i 1))
    + v (ix1 (i 1))

/-- The whole network over an aggregation `agg`: two rounds, then the classifier. -/
def net (agg : ((⟨2, ![100000, 128]⟩ : Shape).Idx → EReal) → (⟨2, ![100000, 128]⟩ : Shape).Idx → EReal)
    (x : (⟨2, ![100000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (U : (⟨2, ![128, 64]⟩ : Shape).Idx → EReal) (u : (⟨1, ![64]⟩ : Shape).Idx → EReal)
    (V : (⟨2, ![64, 2]⟩ : Shape).Idx → EReal) (v : (⟨1, ![2]⟩ : Shape).Idx → EReal) :
    (⟨2, ![100000, 2]⟩ : Shape).Idx → EReal :=
  head (layer (agg (layer (agg x) x W1 b1)) (layer (agg x) x W1 b1) W2 b2) U u V v

end Cert.Gcn

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.KernelBody.lean ====
/-
  The three kernel bodies, read at one entry of the block they store.

  Each body stores one value, a pure function of the blocks it loads. On the extended reals a change of float format
  is the identity, a matrix product into the zero accumulator is the plain sum over the contracted coordinate, and a
  `[1, n]` bias row broadcast over the rows is read at its column. So entry (p, q) of a layer body's value is
      max (∑ₖ (a (p, k) + x (p, k)) · W (k, q) + b (0, q)) 0
  and entry (p, q) of the classifier body's value is
      ∑ₖ max (∑ⱼ x (p, j) · U (j, k) + u (0, k)) 0 · V (k, q) + v (0, q).

  The second half restates each of these against whole arrays: when the loaded blocks agree with arrays `A`, `X` on the
  row an entry needs and the weights and bias rows are the whole arrays, the body's entry is the network's `layer` or `head`
  of those arrays at the corresponding array index.
-/
import proofs.«148782_j43499428774647_1_alg».proof.Proof.Gen.KernelIdeal.Skeleton
import proofs.«148782_j43499428774647_1_alg».proof.Proof.GcnSpec
import proofs.«148782_j43499428774647_1_alg».proof.Proof.LibPlainDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-! ## The bodies at an entry of their block -/

/-- The first layer's body at entry (p, q). -/
theorem pay0_entry (a x : Vec Ideal S5000x128 .f32) (W : Vec Ideal S128x128 .f32) (b : Vec Ideal S1x128 .f32)
    (p : Fin 5000) (q : Fin 128) :
    k0_pay1 (F := Ideal) a x W b (ix2 p q)
      = max (∑ k : Fin 128, (a (ix2 p k) + x (ix2 p k)) * W (ix2 k q) + b (ix2 (0 : Fin 1) q)) Cert.Gcn.zero := by
  unfold k0_pay1
  rw [maximumf_apply, addf_apply, PlainDot.matmul_zero_apply dot_S5000x128_S128x128_S5000x128_1_0_0_1_n_n rfl,
    broadcastTo_1b_ab_apply, shapeCast_self, shapeCast_self]
  rfl

/-- The second layer's body at entry (p, q): the same function of its loads. -/
theorem pay1_entry (a x : Vec Ideal S5000x128 .f32) (W : Vec Ideal S128x128 .f32) (b : Vec Ideal S1x128 .f32)
    (p : Fin 5000) (q : Fin 128) :
    k1_pay1 (F := Ideal) a x W b (ix2 p q)
      = max (∑ k : Fin 128, (a (ix2 p k) + x (ix2 p k)) * W (ix2 k q) + b (ix2 (0 : Fin 1) q)) Cert.Gcn.zero := by
  unfold k1_pay1
  rw [maximumf_apply, addf_apply, PlainDot.matmul_zero_apply dot_S5000x128_S128x128_S5000x128_1_0_0_1_n_n rfl,
    broadcastTo_1b_ab_apply, shapeCast_self, shapeCast_self, shapeCast_self]
  rfl

/-- The hidden row of the classifier body at entry (p, k): a rectified affine image of row p. -/
theorem hidden_entry (x : Vec Ideal S5000x128 .f32) (U : Vec Ideal S128x64 .f32) (u : Vec Ideal S1x64 .f32)
    (p : Fin 5000) (k : Fin 64) :
    maximumf (addf (matmul dot_S5000x128_S128x64_S5000x64_1_0_0_1_n_n none
        (truncf .bf16 (shapeCast S5000x128 x shapeCasts_S5000x128_S5000x128) bitsLt_bf16_f32) (truncf .bf16 U bitsLt_bf16_f32)
        (constant (F := Ideal) S5000x64 .f32 0x00000000#32))
      (broadcastTo S5000x64 (shapeCast S1x64 u shapeCasts_S1x64_S1x64) broadcasts_S1x64_S5000x64))
      (broadcast S5000x64 (Scalar.ofBits (F := Ideal) .f32 0x00000000#32)) (ix2 p k)
      = max (∑ j : Fin 128, x (ix2 p j) * U (ix2 j k) + u (ix2 (0 : Fin 1) k)) Cert.Gcn.zero := by
  rw [maximumf_apply, addf_apply, PlainDot.matmul_zero_apply dot_S5000x128_S128x64_S5000x64_1_0_0_1_n_n rfl,
    broadcastTo_1b_ab_apply, shapeCast_self, shapeCast_self]
  rfl

/-- The classifier's body at entry (p, q). -/
theorem pay2_entry (x : Vec Ideal S5000x128 .f32) (U : Vec Ideal S128x64 .f32) (u : Vec Ideal S1x64 .f32)
    (Vm : Vec Ideal S64x2 .f32) (v : Vec Ideal S1x2 .f32) (p : Fin 5000) (q : Fin 2) :
    k2_pay1 (F := Ideal) x U u Vm v (ix2 p q)
      = ∑ k : Fin 64, max (∑ j : Fin 128, x (ix2 p j) * U (ix2 j k) + u (ix2 (0 : Fin 1) k)) Cert.Gcn.zero * Vm (ix2 k q)
        + v (ix2 (0 : Fin 1) q) := by
  unfold k2_pay1
  rw [addf_apply, PlainDot.matmul_zero_apply dot_S5000x64_S64x2_S5000x2_1_0_0_1_n_n rfl,
    broadcastTo_1b_ab_apply, shapeCast_self v]
  refine congrArg₂ (· + ·) (Finset.sum_congr rfl fun k _ => ?_) rfl
  refine congrArg₂ (· * ·) ?_ rfl
  exact hidden_entry x U u p k

/-! ## The bodies against whole arrays -/

/-- A layer body's entry `j` is the network's layer at array index `i`, when `i` and `j` share the column, the loaded
    blocks carry row `i 0` of the arrays at block row `j 0`, and the weight and bias blocks are the whole arrays. -/
theorem layer0_block (A X : S100000x128.Idx → EReal) (Wt : S128x128.Idx → EReal) (B : S1x128.Idx → EReal)
    (a x : Vec Ideal S5000x128 .f32) (W : Vec Ideal S128x128 .f32) (b : Vec Ideal S1x128 .f32)
    (j : S5000x128.Idx) (i : S100000x128.Idx) (h1 : (i 1).val = (j 1).val)
    (ha : ∀ k : Fin 128, a (ix2 (j 0) k) = A (ix2 (i 0) k)) (hx : ∀ k : Fin 128, x (ix2 (j 0) k) = X (ix2 (i 0) k))
    (hW : ∀ y, W y = Wt y) (hb : ∀ y, b y = B y) :
    k0_pay1 (F := Ideal) a x W b j = Cert.Gcn.layer A X Wt (fun d => B (ix2 (0 : Fin 1) (d 0))) i := by
  have eW : W = Wt := funext hW
  have eb : b = B := funext hb
  subst eW eb
  obtain ⟨p, q, rfl⟩ : ∃ (p : Fin 5000) (q : Fin 128), j = ix2 p q := ⟨j 0, j 1, eq_ix2 j⟩
  have hq : i 1 = q := Fin.ext h1
  have ha' : ∀ k : Fin 128, a (ix2 p k) = A (ix2 (i 0) k) := ha
  have hx' : ∀ k : Fin 128, x (ix2 p k) = X (ix2 (i 0) k) := hx
  rw [pay0_entry]
  show _ = max (∑ k : Fin 128, (A (ix2 (i 0) k) + X (ix2 (i 0) k)) * W (ix2 k (i 1)) + b (ix2 (0 : Fin 1) (i 1))) Cert.Gcn.zero
  rw [hq]
  simp only [ha', hx']

/-- The same for the second layer's body. -/
theorem layer1_block (A X : S100000x128.Idx → EReal) (Wt : S128x128.Idx → EReal) (B : S1x128.Idx → EReal)
    (a x : Vec Ideal S5000x128 .f32) (W : Vec Ideal S128x128 .f32) (b : Vec Ideal S1x128 .f32)
    (j : S5000x128.Idx) (i : S100000x128.Idx) (h1 : (i 1).val = (j 1).val)
    (ha : ∀ k : Fin 128, a (ix2 (j 0) k) = A (ix2 (i 0) k)) (hx : ∀ k : Fin 128, x (ix2 (j 0) k) = X (ix2 (i 0) k))
    (hW : ∀ y, W y = Wt y) (hb : ∀ y, b y = B y) :
    k1_pay1 (F := Ideal) a x W b j = Cert.Gcn.layer A X Wt (fun d => B (ix2 (0 : Fin 1) (d 0))) i := by
  have eW : W = Wt := funext hW
  have eb : b = B := funext hb
  subst eW eb
  obtain ⟨p, q, rfl⟩ : ∃ (p : Fin 5000) (q : Fin 128), j = ix2 p q := ⟨j 0, j 1, eq_ix2 j⟩
  have hq : i 1 = q := Fin.ext h1
  have ha' : ∀ k : Fin 128, a (ix2 p k) = A (ix2 (i 0) k) := ha
  have hx' : ∀ k : Fin 128, x (ix2 p k) = X (ix2 (i 0) k) := hx
  rw [pay1_entry]
  show _ = max (∑ k : Fin 128, (A (ix2 (i 0) k) + X (ix2 (i 0) k)) * W (ix2 k (i 1)) + b (ix2 (0 : Fin 1) (i 1))) Cert.Gcn.zero
  rw [hq]
  simp only [ha', hx']

/-- The classifier body's entry `j` is the network's classifier at array index `i`, under the same agreement. -/
theorem head_block (X : S100000x128.Idx → EReal) (Ut : S128x64.Idx → EReal) (ut : S1x64.Idx → EReal)
    (Vt : S64x2.Idx → EReal) (vt : S1x2.Idx → EReal)
    (x : Vec Ideal S5000x128 .f32) (U : Vec Ideal S128x64 .f32) (u : Vec Ideal S1x64 .f32)
    (Vm : Vec Ideal S64x2 .f32) (v : Vec Ideal S1x2 .f32)
    (j : S5000x2.Idx) (i : S100000x2.Idx) (h1 : (i 1).val = (j 1).val)
    (hx : ∀ k : Fin 128, x (ix2 (j 0) k) = X (ix2 (i 0) k))
    (hU : ∀ y, U y = Ut y) (hu : ∀ y, u y = ut y) (hV : ∀ y, Vm y = Vt y) (hv : ∀ y, v y = vt y) :
    k2_pay1 (F := Ideal) x U u Vm v j
      = Cert.Gcn.head X Ut (fun d => ut (ix2 (0 : Fin 1) (d 0))) Vt (fun d => vt (ix2 (0 : Fin 1) (d 0))) i := by
  have eU : U = Ut := funext hU
  have eu : u = ut := funext hu
  have eV : Vm = Vt := funext hV
  have ev : v = vt := funext hv
  subst eU eu eV ev
  obtain ⟨p, q, rfl⟩ : ∃ (p : Fin 5000) (q : Fin 2), j = ix2 p q := ⟨j 0, j 1, eq_ix2 j⟩
  have hq : i 1 = q := Fin.ext h1
  have hx' : ∀ k : Fin 128, x (ix2 p k) = X (ix2 (i 0) k) := hx
  rw [pay2_entry]
  show _ = ∑ k : Fin 64, max (∑ l : Fin 128, X (ix2 (i 0) l) * U (ix2 l k) + u (ix2 (0 : Fin 1) k)) Cert.Gcn.zero * Vm (ix2 k (i 1))
    + v (ix2 (0 : Fin 1) (i 1))
  rw [hq]
  simp only [hx']

end Cert.KernelIdeal.Body

end
-- ==== Proof.RegionValue.lean ====
/-
  Each kernel region's output array, as one function of the arrays the region finds on entry.

  A region runs its body at twenty grid points; point `t` loads rows 5000·t … 5000·t + 4999 of the row-blocked operands
  and the whole of the weight and bias operands, and writes back rows 5000·t … 5000·t + 4999 of the output. The body's
  value at an entry depends only on the entry's own row of the row-blocked operands, so what point `t` writes back is the
  restriction to its rows of ONE whole-array function: the network's layer (regions 0 and 1) or classifier (region 2)
  of the arrays as entered. The twenty blocks tile the output array, so after the region the array IS that function.

  Everything here is stated at an arbitrary entry contents `V`, which is how the regions' proof data are stated; the
  run instantiates it at each region's actual entry contents.
-/
import proofs.«148782_j43499428774647_1_alg».proof.Proof.Gen.KernelIdeal.Frame
import proofs.«148782_j43499428774647_1_alg».proof.Proof.KernelBody

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Every load and store of the three bodies starts at the origin of its buffer. -/
theorem origin : (![0, 0] : Fin 2 → Nat) = fun _ => 0 := funext fun a => by fin_cases a <;> rfl

/-! ## Region 0: the first round -/

/-- Region 0's block indices over its 20 grid points: the aggregate, the node array and the output move with the
    point along the rows; the weights and the bias row are one block. -/
theorem blocks0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` of region 0 writes back is block `t` of the layer of the region's arrays as it finds them. -/
theorem flushed0 (c : Dev nD) (t : Fin cfg0.N) :
    (dat0 V c).flushed 4 t = ((cfg0.win 4).blk t).view.read (Elt Ideal)
      (Cert.Gcn.layer (V c main_v16) (V c main_arg0) (V c main_arg3) (fun d => V c main_v17 (ix2 (0 : Fin 1) (d 0)))) := by
  show (cfg0.win 4).cut (grid0.coords t) ((dat0 V c).after 4 t) = _
  rw [after0_4]
  unfold out0_4
  rw [View.canon_unit_zero origin]
  simp only [View.ld_unit_zero (S := S5000x128) origin, View.ld_unit_zero (S := S128x128) origin, View.ld_unit_zero (S := S1x128) origin]
  obtain ⟨e00, e01, e10, e11, e20, e21, e30, e31, e40, e41⟩ := blocks0 t
  refine funext fun (j : S5000x128.Idx) => ?_
  show k0_pay1 (F := Ideal) (iblk0 V c 0 t) (iblk0 V c 1 t) (iblk0 V c 2 t) (iblk0 V c 3 t) j
    = Cert.Gcn.layer (V c main_v16) (V c main_arg0) (V c main_arg3) (fun d => V c main_v17 (ix2 (0 : Fin 1) (d 0))) (((cfg0.win 4).blk t).view.emb j)
  refine Body.layer0_block (V c main_v16) (V c main_arg0) (V c main_arg3) (V c main_v17) (iblk0 V c 0 t) (iblk0 V c 1 t) (iblk0 V c 2 t) (iblk0 V c 3 t) j (((cfg0.win 4).blk t).view.emb j) ?_ (fun k => ?_) (fun k => ?_) (fun y => ?_) (fun y => ?_)
  · show win0_4.index t (1 : Fin 2) * 128 + 1 * (j 1).val = (j 1).val
    omega
  · show V c main_v16 (((cfg0.win 0).blk t).view.emb (ix2 (j 0) k)) = V c main_v16 (ix2 ((((cfg0.win 4).blk t).view.emb j) 0) k)
    refine congrArg _ (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  · show V c main_arg0 (((cfg0.win 1).blk t).view.emb (ix2 (j 0) k)) = V c main_arg0 (ix2 ((((cfg0.win 4).blk t).view.emb j) 0) k)
    refine congrArg _ (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * k.val = k.val; omega
  · show V c main_arg3 (((cfg0.win 2).blk t).view.emb y) = V c main_arg3 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · show V c main_v17 (((cfg0.win 3).blk t).view.emb y) = V c main_v17 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega

/-- An index of the output array is in point `t`'s block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v18).slice (win0_4.rect t)).set ↔ _
  rw [View.set_slice_whole, Rect.mem_set_unit]
  exact Iff.rfl

/-- Row `r` of the output array is in the block of point `r / 5000`: the twenty blocks tile the array. -/
theorem cover0 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_4 _, ?_⟩
  rw [mem_blk0]
  obtain ⟨-, -, -, -, -, -, -, -, e40, e41⟩ := blocks0 ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e40]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e41]; omega

/-- Region 0's output array after the region: the layer of the region's arrays as it finds them. -/
theorem final0 (c : Dev nD) :
    (dat0 V c).arrAt 4 cfg0.N
      = Cert.Gcn.layer (V c main_v16) (V c main_arg0) (V c main_arg3) (fun d => V c main_v17 (ix2 (0 : Fin 1) (d 0))) :=
  (dat0 V c).arrAt_eq_of_cover 4 _ (fun t _ => flushed0 V c t) cover0

/-! ## Region 1: the second round -/

/-- Region 1's block indices over its 20 grid points: the aggregate, the node array and the output move with the
    point along the rows; the weights and the bias row are one block. -/
theorem blocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` of region 1 writes back is block `t` of the layer of the region's arrays as it finds them. -/
theorem flushed1 (c : Dev nD) (t : Fin cfg1.N) :
    (dat1 V c).flushed 4 t = ((cfg1.win 4).blk t).view.read (Elt Ideal)
      (Cert.Gcn.layer (V c main_v35) (V c main_v18) (V c main_arg5) (fun d => V c main_v36 (ix2 (0 : Fin 1) (d 0)))) := by
  show (cfg1.win 4).cut (grid1.coords t) ((dat1 V c).after 4 t) = _
  rw [after1_4]
  unfold out1_4
  rw [View.canon_unit_zero origin]
  simp only [View.ld_unit_zero (S := S5000x128) origin, View.ld_unit_zero (S := S128x128) origin, View.ld_unit_zero (S := S1x128) origin]
  obtain ⟨e00, e01, e10, e11, e20, e21, e30, e31, e40, e41⟩ := blocks1 t
  refine funext fun (j : S5000x128.Idx) => ?_
  show k1_pay1 (F := Ideal) (iblk1 V c 0 t) (iblk1 V c 1 t) (iblk1 V c 2 t) (iblk1 V c 3 t) j
    = Cert.Gcn.layer (V c main_v35) (V c main_v18) (V c main_arg5) (fun d => V c main_v36 (ix2 (0 : Fin 1) (d 0))) (((cfg1.win 4).blk t).view.emb j)
  refine Body.layer1_block (V c main_v35) (V c main_v18) (V c main_arg5) (V c main_v36) (iblk1 V c 0 t) (iblk1 V c 1 t) (iblk1 V c 2 t) (iblk1 V c 3 t) j (((cfg1.win 4).blk t).view.emb j) ?_ (fun k => ?_) (fun k => ?_) (fun y => ?_) (fun y => ?_)
  · show win1_4.index t (1 : Fin 2) * 128 + 1 * (j 1).val = (j 1).val
    omega
  · show V c main_v35 (((cfg1.win 0).blk t).view.emb (ix2 (j 0) k)) = V c main_v35 (ix2 ((((cfg1.win 4).blk t).view.emb j) 0) k)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show V c main_v18 (((cfg1.win 1).blk t).view.emb (ix2 (j 0) k)) = V c main_v18 (ix2 ((((cfg1.win 4).blk t).view.emb j) 0) k)
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  · show V c main_arg5 (((cfg1.win 2).blk t).view.emb y) = V c main_arg5 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · show V c main_v36 (((cfg1.win 3).blk t).view.emb y) = V c main_v36 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega

/-- An index of the output array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v37).slice (win1_4.rect t)).set ↔ _
  rw [View.set_slice_whole, Rect.mem_set_unit]
  exact Iff.rfl

/-- Row `r` of the output array is in the block of point `r / 5000`: the twenty blocks tile the array. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_4 _, ?_⟩
  rw [mem_blk1]
  obtain ⟨-, -, -, -, -, -, -, -, e40, e41⟩ := blocks1 ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e40]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e41]; omega

/-- Region 1's output array after the region: the layer of the region's arrays as it finds them. -/
theorem final1 (c : Dev nD) :
    (dat1 V c).arrAt 4 cfg1.N
      = Cert.Gcn.layer (V c main_v35) (V c main_v18) (V c main_arg5) (fun d => V c main_v36 (ix2 (0 : Fin 1) (d 0))) :=
  (dat1 V c).arrAt_eq_of_cover 4 _ (fun t _ => flushed1 V c t) cover1

/-! ## Region 2: the classifier -/

/-- Region 2's block indices over its 20 grid points: the node array and the output move with the point along the
    rows; both weight matrices and both bias rows are one block. -/
theorem blocks2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` of region 2 writes back is block `t` of the classifier of the region's arrays as it finds them. -/
theorem flushed2 (c : Dev nD) (t : Fin cfg2.N) :
    (dat2 V c).flushed 5 t = ((cfg2.win 5).blk t).view.read (Elt Ideal)
      (Cert.Gcn.head (V c main_v37) (V c main_arg7) (fun d => V c main_v38 (ix2 (0 : Fin 1) (d 0))) (V c main_arg9)
        (fun d => V c main_v39 (ix2 (0 : Fin 1) (d 0)))) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x64) origin, View.ld_unit_zero (S := S1x64) origin,
    View.ld_unit_zero (S := S64x2) origin, View.ld_unit_zero (S := S1x2) origin]
  obtain ⟨e00, e01, e10, e11, e20, e21, e30, e31, e40, e41, e50, e51⟩ := blocks2 t
  refine funext fun (j : S5000x2.Idx) => ?_
  show k2_pay1 (F := Ideal) (iblk2 V c 0 t) (iblk2 V c 1 t) (iblk2 V c 2 t) (iblk2 V c 3 t) (iblk2 V c 4 t) j
    = Cert.Gcn.head (V c main_v37) (V c main_arg7) (fun d => V c main_v38 (ix2 (0 : Fin 1) (d 0))) (V c main_arg9)
        (fun d => V c main_v39 (ix2 (0 : Fin 1) (d 0))) (((cfg2.win 5).blk t).view.emb j)
  refine Body.head_block (V c main_v37) (V c main_arg7) (V c main_v38) (V c main_arg9) (V c main_v39)
    (iblk2 V c 0 t) (iblk2 V c 1 t) (iblk2 V c 2 t) (iblk2 V c 3 t) (iblk2 V c 4 t) j (((cfg2.win 5).blk t).view.emb j)
    ?_ (fun k => ?_) (fun y => ?_) (fun y => ?_) (fun y => ?_) (fun y => ?_)
  · show win2_5.index t (1 : Fin 2) * 2 + 1 * (j 1).val = (j 1).val
    omega
  · show V c main_v37 (((cfg2.win 0).blk t).view.emb (ix2 (j 0) k)) = V c main_v37 (ix2 ((((cfg2.win 5).blk t).view.emb j) 0) k)
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · show V c main_arg7 (((cfg2.win 1).blk t).view.emb y) = V c main_arg7 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 64 + 1 * (y 1).val = (y 1).val; omega
  · show V c main_v38 (((cfg2.win 2).blk t).view.emb y) = V c main_v38 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 64 + 1 * (y 1).val = (y 1).val; omega
  · show V c main_arg9 (((cfg2.win 3).blk t).view.emb y) = V c main_arg9 y
    refine congrArg _ (funext fun a => Fin.ext ?_)
    match a with
    | ⟨0, _⟩ => show win2_3.index t (0 : Fin 2) * 64 + 1 * (y 0).val = (y 0).val; omega
    | ⟨1, _⟩ => show win2_3.index t (1 : Fin 2) * 2 + 1 * (y 1).val = (y 1).val; omega
  · show V c main_v39 (((cfg2.win 4).blk t).view.emb y) = V c main_v39 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 2 + 1 * (y 1).val = (y 1).val; omega

/-- An index of the output array is in point `t`'s block iff each coordinate is in the block's range on its axis. -/
theorem mem_blk2 (t : Fin cfg2.N) (i : S100000x2.Idx) :
    i ∈ ((cfg2.win 5).blk t).view.set ↔ ∀ a : Fin 2, win2_5.index t a * S5000x2.size a ≤ (i a).val ∧ (i a).val < win2_5.index t a * S5000x2.size a + S5000x2.size a := by
  show i ∈ ((View.whole main_v40).slice (win2_5.rect t)).set ↔ _
  rw [View.set_slice_whole, Rect.mem_set_unit]
  exact Iff.rfl

/-- Row `r` of the output array is in the block of point `r / 5000`: the twenty blocks tile the array. -/
theorem cover2 (i : S100000x2.Idx) : ∃ t : Fin cfg2.N, (cfg2.win 5).flush t = true ∧ i ∈ ((cfg2.win 5).blk t).view.set := by
  have hi0 : (i 0).val < 100000 := (i 0).isLt
  have hi1 : (i 1).val < 2 := (i 1).isLt
  have hN : cfg2.N = 20 := N_2
  refine ⟨⟨(i 0).val / 5000, by rw [hN]; omega⟩, flush2_5 _, ?_⟩
  rw [mem_blk2]
  obtain ⟨-, -, -, -, -, -, -, -, -, -, e50, e51⟩ := blocks2 ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000; omega
  | ⟨1, _⟩ =>
    show win2_5.index _ (1 : Fin 2) * 2 ≤ (i 1).val ∧ (i 1).val < win2_5.index _ (1 : Fin 2) * 2 + 2
    rw [e51]; omega

/-- Region 2's output array after the region: the classifier of the region's arrays as it finds them. -/
theorem final2 (c : Dev nD) :
    (dat2 V c).arrAt 5 cfg2.N
      = Cert.Gcn.head (V c main_v37) (V c main_arg7) (fun d => V c main_v38 (ix2 (0 : Fin 1) (d 0))) (V c main_arg9)
          (fun d => V c main_v39 (ix2 (0 : Fin 1) (d 0))) :=
  (dat2 V c).arrAt_eq_of_cover 5 _ (fun t _ => flushed2 V c t) cover2

end Cert.KernelIdeal.RegionValue

end
-- ==== Proof.KernelRun.lean ====
/-
  The kernel program's run, read back.

  The program is three kernel regions among stretches of host operations. Its run is a fold over those segments:
  a host stretch applies its operations to the buffer contents; a region replaces its output array by what its
  write-backs leave and keeps everything else. So the result buffer after the run is the last region's output array,
  which is the classifier of the arrays that region finds; the node array it finds is the second region's output,
  the layer of the arrays THAT region finds — the aggregate the second host stretch computes from the first region's
  output, and that output itself —, and so on back to the arguments. The biases reach the regions as `[1, n]` rows,
  reshaped from the `[n]` arguments; read at their one row they are the arguments.

  Unfolded, the result is `Gcn.net` over the host's aggregate, of the arguments.
-/
import proofs.«148782_j43499428774647_1_alg».proof.Proof.Gen.KernelIdeal.Frame
import proofs.«148782_j43499428774647_1_alg».proof.Proof.RegionValue
import Idealize.ShloMosaic.Lib.StableHlo.Run
import Idealize.ShloMosaic.Lib.ValueLayout

set_option maxRecDepth 16384

noncomputable section

namespace Cert.KernelIdeal.NetRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run, with the result buffer named -/

set_option backward.isDefEq.respectTransparency.types false in
/-- Every weakly fair execution of the program terminates without a fault; the result buffer ends at the last
    segment boundary's contents and the arguments end as launched. -/
theorem run_named : θ_run defs (onTc (τ := τ) (main (F := Ideal))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

/-! ## The host's aggregate -/

/-- The host's aggregate of a node array: the rows the edge list names as sources (a negative index counted from the
    end), each scaled by its edge's weight, scatter-added into a zero array at the rows the edge list names as targets. -/
def agg (x : FVec Ideal S100000x128 .f32) (ei : IVec S2x1600000 32) (ew : FVec Ideal S1600000 .f32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast _ (extractStridedSlice S1x1600000 ![1, 0] ei slices_S2x1600000_S1x1600000_1_0) shapeCasts_S1x1600000_S1600000))
    (mulf (Host.gather gather_S100000x128_S1600000x1_S1600000x128_1_0_n_n_0_1_1128 x
        (broadcastInDim S1600000x1 ![0] bcast_S1600000_S1600000x1_0
          (select
            (cmpi .slt (shapeCast _ (extractStridedSlice S1x1600000 ![0, 0] ei slices_S2x1600000_S1x1600000_0_0) shapeCasts_S1x1600000_S1600000)
              (broadcastInDim S1600000 ![] bcast_S_S1600000 (constantI S_ 32 0#32)))
            (addi (shapeCast _ (extractStridedSlice S1x1600000 ![0, 0] ei slices_S2x1600000_S1x1600000_0_0) shapeCasts_S1x1600000_S1600000)
              (broadcastInDim S1600000 ![] bcast_S_S1600000 (constantI S_ 32 100000#32)))
            (shapeCast _ (extractStridedSlice S1x1600000 ![0, 0] ei slices_S2x1600000_S1x1600000_0_0) shapeCasts_S1x1600000_S1600000))))
      (broadcastInDim S1600000x128 ![0, 1] bcast_S1600000x1_S1600000x128_0_1
        (broadcastInDim S1600000x1 ![0] bcast_S1600000_S1600000x1_0 ew)))

/-- A `[n]` array reshaped to one row and read at that row is the array. -/
theorem row_of_cast {n : ℕ} (b : (⟨1, ![n]⟩ : Shape).Idx → EReal) (h : (⟨1, ![n]⟩ : Shape).ShapeCasts ⟨2, ![1, n]⟩) :
    (fun d : (⟨1, ![n]⟩ : Shape).Idx => shapeCast ⟨2, ![1, n]⟩ b h (ix2 (0 : Fin 1) (d 0))) = b := by
  funext d
  obtain ⟨q, rfl⟩ : ∃ q : Fin n, d = ix1 q := ⟨d 0, eq_ix1 d⟩
  exact shapeCast_a_1a_apply b h 0 q

/-! ## The first round: what region 0 finds, and what it leaves -/

theorem found0_agg (c : Dev nD) : V1 m ρ c main_v16 = agg (m ((c : Thread nD τ).loc main_arg0)) (m ((c : Thread nD τ).loc main_arg1)) (m ((c : Thread nD τ).loc main_arg2)) := by
  show StableHlo.after hostOps0 (W0 m ρ c) (Proc.devRef .tc main_v16) = _
  after_results <;> rfl

theorem found0_x (c : Dev nD) : V1 m ρ c main_arg0 = (m ((c : Thread nD τ).loc main_arg0)) := by
  show StableHlo.after hostOps0 (W0 m ρ c) (Proc.devRef .tc main_arg0) = _
  after_results <;> rfl

theorem found0_W (c : Dev nD) : V1 m ρ c main_arg3 = (m ((c : Thread nD τ).loc main_arg3)) := by
  show StableHlo.after hostOps0 (W0 m ρ c) (Proc.devRef .tc main_arg3) = _
  after_results <;> rfl

theorem found0_b (c : Dev nD) : V1 m ρ c main_v17 = shapeCast S1x128 (m ((c : Thread nD τ).loc main_arg4)) shapeCasts_S128_S1x128 := by
  show StableHlo.after hostOps0 (W0 m ρ c) (Proc.devRef .tc main_v17) = _
  after_results <;> rfl

/-- The node array after the first round. -/
def x1 (c : Dev nD) : S100000x128.Idx → EReal :=
  Cert.Gcn.layer (agg (m ((c : Thread nD τ).loc main_arg0)) (m ((c : Thread nD τ).loc main_arg1)) (m ((c : Thread nD τ).loc main_arg2))) (m ((c : Thread nD τ).loc main_arg0)) (m ((c : Thread nD τ).loc main_arg3)) (m ((c : Thread nD τ).loc main_arg4))

/-- Region 0 leaves the first round's node array in its output buffer. -/
theorem left0 (c : Dev nD) : W2 m ρ c (Proc.devRef .tc main_v18) = x1 m c := by
  refine (W2_arr m ρ c 4).trans ((RegionValue.final0 (V1 m ρ) c).trans ?_)
  rw [found0_agg, found0_x, found0_W, found0_b, row_of_cast]
  rfl

/-- An argument that region 0 does not write is, after region 0, what it was at launch. -/
theorem kept0 (c : Dev nD) (b : Ref sig .tc) (h0 : ∀ w, Pipeline.arrRef spec0 w ≠ b)
    (h : StableHlo.after hostOps0 (W0 m ρ c) (Proc.devRef .tc b) = m ((c : Thread nD τ).loc b)) :
    W2 m ρ c (Proc.devRef .tc b) = m ((c : Thread nD τ).loc b) :=
  (W2_of_ne m ρ c b h0).trans h

theorem kept0_ei (c : Dev nD) : W2 m ρ c (Proc.devRef .tc main_arg1) = (m ((c : Thread nD τ).loc main_arg1)) :=
  kept0 m ρ c main_arg1 (by decide) (by after_results <;> rfl)
theorem kept0_ew (c : Dev nD) : W2 m ρ c (Proc.devRef .tc main_arg2) = (m ((c : Thread nD τ).loc main_arg2)) :=
  kept0 m ρ c main_arg2 (by decide) (by after_results <;> rfl)
theorem kept0_W2 (c : Dev nD) : W2 m ρ c (Proc.devRef .tc main_arg5) = (m ((c : Thread nD τ).loc main_arg5)) :=
  kept0 m ρ c main_arg5 (by decide) (by after_results <;> rfl)
theorem kept0_b2 (c : Dev nD) : W2 m ρ c (Proc.devRef .tc main_arg6) = (m ((c : Thread nD τ).loc main_arg6)) :=
  kept0 m ρ c main_arg6 (by decide) (by after_results <;> rfl)
theorem kept0_U (c : Dev nD) : W2 m ρ c (Proc.devRef .tc main_arg7) = (m ((c : Thread nD τ).loc main_arg7)) :=
  kept0 m ρ c main_arg7 (by decide) (by after_results <;> rfl)
theorem kept0_u (c : Dev nD) : W2 m ρ c (Proc.devRef .tc main_arg8) = (m ((c : Thread nD τ).loc main_arg8)) :=
  kept0 m ρ c main_arg8 (by decide) (by after_results <;> rfl)
theorem kept0_V (c : Dev nD) : W2 m ρ c (Proc.devRef .tc main_arg9) = (m ((c : Thread nD τ).loc main_arg9)) :=
  kept0 m ρ c main_arg9 (by decide) (by after_results <;> rfl)
theorem kept0_v (c : Dev nD) : W2 m ρ c (Proc.devRef .tc main_arg10) = (m ((c : Thread nD τ).loc main_arg10)) :=
  kept0 m ρ c main_arg10 (by decide) (by after_results <;> rfl)

/-! ## The second round -/

theorem found1_agg (c : Dev nD) : V3 m ρ c main_v35 = agg (x1 m c) (m ((c : Thread nD τ).loc main_arg1)) (m ((c : Thread nD τ).loc main_arg2)) := by
  show StableHlo.after hostOps1 (W2 m ρ c) (Proc.devRef .tc main_v35) = _
  after_results
  rw [left0, kept0_ei, kept0_ew]
  rfl

theorem found1_x (c : Dev nD) : V3 m ρ c main_v18 = x1 m c := by
  show StableHlo.after hostOps1 (W2 m ρ c) (Proc.devRef .tc main_v18) = _
  after_results
  exact left0 m ρ c

theorem found1_W (c : Dev nD) : V3 m ρ c main_arg5 = (m ((c : Thread nD τ).loc main_arg5)) := by
  show StableHlo.after hostOps1 (W2 m ρ c) (Proc.devRef .tc main_arg5) = _
  after_results
  exact kept0_W2 m ρ c

theorem found1_b (c : Dev nD) : V3 m ρ c main_v36 = shapeCast S1x128 (m ((c : Thread nD τ).loc main_arg6)) shapeCasts_S128_S1x128 := by
  show StableHlo.after hostOps1 (W2 m ρ c) (Proc.devRef .tc main_v36) = _
  after_results
  rw [kept0_b2]
  rfl

/-- The node array after the second round. -/
def x2 (c : Dev nD) : S100000x128.Idx → EReal :=
  Cert.Gcn.layer (agg (x1 m c) (m ((c : Thread nD τ).loc main_arg1)) (m ((c : Thread nD τ).loc main_arg2))) (x1 m c) (m ((c : Thread nD τ).loc main_arg5)) (m ((c : Thread nD τ).loc main_arg6))

/-- Region 1 leaves the second round's node array in its output buffer. -/
theorem left1 (c : Dev nD) : W4 m ρ c (Proc.devRef .tc main_v37) = x2 m c := by
  refine (W4_arr m ρ c 4).trans ((RegionValue.final1 (V3 m ρ) c).trans ?_)
  rw [found1_agg, found1_x, found1_W, found1_b, row_of_cast]
  rfl

/-- An argument that neither the second host stretch nor region 1 writes is, after region 1, what it was after region 0. -/
theorem kept1 (c : Dev nD) (b : Ref sig .tc) (h1 : ∀ w, Pipeline.arrRef spec1 w ≠ b)
    (h : StableHlo.after hostOps1 (W2 m ρ c) (Proc.devRef .tc b) = W2 m ρ c (Proc.devRef .tc b)) :
    W4 m ρ c (Proc.devRef .tc b) = W2 m ρ c (Proc.devRef .tc b) :=
  (W4_of_ne m ρ c b h1).trans h

theorem kept1_U (c : Dev nD) : W4 m ρ c (Proc.devRef .tc main_arg7) = (m ((c : Thread nD τ).loc main_arg7)) :=
  (kept1 m ρ c main_arg7 (by decide) (by after_results <;> rfl)).trans (kept0_U m ρ c)
theorem kept1_u (c : Dev nD) : W4 m ρ c (Proc.devRef .tc main_arg8) = (m ((c : Thread nD τ).loc main_arg8)) :=
  (kept1 m ρ c main_arg8 (by decide) (by after_results <;> rfl)).trans (kept0_u m ρ c)
theorem kept1_V (c : Dev nD) : W4 m ρ c (Proc.devRef .tc main_arg9) = (m ((c : Thread nD τ).loc main_arg9)) :=
  (kept1 m ρ c main_arg9 (by decide) (by after_results <;> rfl)).trans (kept0_V m ρ c)
theorem kept1_v (c : Dev nD) : W4 m ρ c (Proc.devRef .tc main_arg10) = (m ((c : Thread nD τ).loc main_arg10)) :=
  (kept1 m ρ c main_arg10 (by decide) (by after_results <;> rfl)).trans (kept0_v m ρ c)

/-! ## The classifier -/

theorem found2_x (c : Dev nD) : V5 m ρ c main_v37 = x2 m c := by
  show StableHlo.after hostOps2 (W4 m ρ c) (Proc.devRef .tc main_v37) = _
  after_results
  exact left1 m ρ c

theorem found2_U (c : Dev nD) : V5 m ρ c main_arg7 = (m ((c : Thread nD τ).loc main_arg7)) := by
  show StableHlo.after hostOps2 (W4 m ρ c) (Proc.devRef .tc main_arg7) = _
  after_results
  exact kept1_U m ρ c

theorem found2_u (c : Dev nD) : V5 m ρ c main_v38 = shapeCast S1x64 (m ((c : Thread nD τ).loc main_arg8)) shapeCasts_S64_S1x64 := by
  show StableHlo.after hostOps2 (W4 m ρ c) (Proc.devRef .tc main_v38) = _
  after_results
  rw [kept1_u]
  rfl

theorem found2_V (c : Dev nD) : V5 m ρ c main_arg9 = (m ((c : Thread nD τ).loc main_arg9)) := by
  show StableHlo.after hostOps2 (W4 m ρ c) (Proc.devRef .tc main_arg9) = _
  after_results
  exact kept1_V m ρ c

theorem found2_v (c : Dev nD) : V5 m ρ c main_v39 = shapeCast S1x2 (m ((c : Thread nD τ).loc main_arg10)) shapeCasts_S2_S1x2 := by
  show StableHlo.after hostOps2 (W4 m ρ c) (Proc.devRef .tc main_v39) = _
  after_results
  rw [kept1_v]
  rfl

/-- The result buffer after the run is the network of the arguments. -/
theorem result_eq (c : Dev nD) :
    W6 m ρ c (Proc.devRef .tc main_v40)
      = Cert.Gcn.net (fun x => agg x (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) := by
  refine (W6_arr m ρ c 5).trans ((RegionValue.final2 (V5 m ρ) c).trans ?_)
  rw [found2_x, found2_U, found2_u, found2_V, found2_v, row_of_cast, row_of_cast]
  rfl

/-- The run: the result is the network of the arguments, and the arguments end as launched. -/
theorem run : θ_run defs (onTc (τ := τ) (main (F := Ideal))) ⟨m, fun _ => 0, ρ⟩ (fun r => ∀ c : Dev nD,
      r.2.mem ((c.tc : Thread nD τ).loc main_v40)
        = Cert.Gcn.net (fun x => agg x (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))
            (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run_named m ρ)

end Cert.KernelIdeal.NetRun

end
-- ==== Proof.RefNet.lean ====
/-
  The reference's result is the network.

  The reference computes each round on the host: the aggregate plus the node array, a `dot_general` with the weight
  matrix, the bias broadcast first to one row and then over all rows, and the maximum with a broadcast zero. On the
  extended reals the `dot_general` of an M×K by a K×N matrix is the sum over the contracted coordinate, a bias broadcast
  that way is read at the entry's column, and the broadcast zero is the zero word at every index; so the host's round
  is `Gcn.layer` and the host's classifier is `Gcn.head`, index by index. The aggregate is the host's own term of the node
  array, the edge list and the edge weights (a gather of source rows, scaled by the weights, scatter-added at the target
  rows), left unopened.
-/
import proofs.«148782_j43499428774647_1_alg».proof.Proof.Gen.ReferenceIdeal.Read
import proofs.«148782_j43499428774647_1_alg».proof.Proof.GcnSpec
import proofs.«148782_j43499428774647_1_alg».proof.Proof.LibPlainDot
import Idealize.ShloMosaic.Lib.Pipeline.Value
import Idealize.ShloMosaic.Lib.ValueIdx

noncomputable section

namespace Cert.ReferenceIdeal.RefNet

open Cert.ReferenceIdeal Cert.ReferenceIdeal.Gen Idealize.ShloMosaic Idealize.ShloMosaic.ValueIdx

/-! ## Broadcasts read at an index -/

/-- A 128-entry bias, broadcast to one row and then over 100000 rows, read at an index: the bias at the column. -/
theorem bias128_apply (b : FVec Ideal S128 .f32) (h1 : S128.BroadcastsInDim S1x128 ![1])
    (h2 : S1x128.BroadcastsInDim S100000x128 ![0, 1]) (i : S100000x128.Idx) :
    broadcastInDim S100000x128 ![0, 1] h2 (broadcastInDim S1x128 ![1] h1 b) i = b (ix1 (i 1)) := by
  rw [broadcastInDim_apply _ h2 _ i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ h1 b (ix2 (0 : Fin 1) (i 1)) (ix1 (i 1)) (fun a => match a with
      | ⟨0, _⟩ => by show (i 1).val = if (128 : Nat) = 1 then 0 else (i 1).val; rw [if_neg (by decide)])]

/-- The same for a 64-entry bias over 100000 rows. -/
theorem bias64_apply (b : FVec Ideal S64 .f32) (h1 : S64.BroadcastsInDim S1x64 ![1])
    (h2 : S1x64.BroadcastsInDim S100000x64 ![0, 1]) (i : S100000x64.Idx) :
    broadcastInDim S100000x64 ![0, 1] h2 (broadcastInDim S1x64 ![1] h1 b) i = b (ix1 (i 1)) := by
  rw [broadcastInDim_apply _ h2 _ i (ix2 (0 : Fin 1) (i 1)) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)]),
    broadcastInDim_apply _ h1 b (ix2 (0 : Fin 1) (i 1)) (ix1 (i 1)) (fun a => match a with
      | ⟨0, _⟩ => by show (i 1).val = if (64 : Nat) = 1 then 0 else (i 1).val; rw [if_neg (by decide)])]

/-- The same for a 2-entry bias over 100000 rows. -/
theorem bias2_apply (b : FVec Ideal S2 .f32) (h1 : S2.BroadcastsInDim S1x2 ![1])
    (h2 : S1x2.BroadcastsInDim S100000x2 ![0, 1]) (i : S100000x2.Idx) :
    broadcastInDim S100000x2 ![0, 1] h2 (broadcastInDim S1x2 ![1] h1 b) i = b (ix1 (i 1)) := by
  rw [broadcastInDim_apply _ h2 _ i (ix2 (0 : Fin 1) (i 1)) (fun a => match a with
      | ⟨0, _⟩ => by show 0 = if (1 : Nat) = 1 then 0 else (i 0).val; rw [if_pos rfl]
      | ⟨1, _⟩ => by show (i 1).val = if (2 : Nat) = 1 then 0 else (i 1).val; rw [if_neg (by decide)]),
    broadcastInDim_apply _ h1 b (ix2 (0 : Fin 1) (i 1)) (ix1 (i 1)) (fun a => match a with
      | ⟨0, _⟩ => by show (i 1).val = if (2 : Nat) = 1 then 0 else (i 1).val; rw [if_neg (by decide)])]

/-- The zero constant broadcast over any shape is the zero word at every index. -/
theorem zeros_apply {s : Shape} (h : S_.BroadcastsInDim s ![]) (i : s.Idx) :
    broadcastInDim s ![] h (constant (F := Ideal) S_ .f32 0x00000000#32) i = Cert.Gcn.zero :=
  broadcastInDim_apply _ h _ i ix0 (fun a => a.elim0)

/-! ## The host's round and classifier -/

/-- The host's round is the network's layer. -/
theorem layer_eq (a x : FVec Ideal S100000x128 .f32) (W : FVec Ideal S128x128 .f32) (b : FVec Ideal S128 .f32)
    (h1 : S128.BroadcastsInDim S1x128 ![1]) (h2 : S1x128.BroadcastsInDim S100000x128 ![0, 1])
    (h0 : S_.BroadcastsInDim S100000x128 ![]) :
    maximumf (addf (Host.dotGeneral dot_S100000x128_S128x128_S100000x128_1_0_0_1_n_n none (addf a x) W)
        (broadcastInDim S100000x128 ![0, 1] h2 (broadcastInDim S1x128 ![1] h1 b)))
      (broadcastInDim S100000x128 ![] h0 (constant (F := Ideal) S_ .f32 0x00000000#32))
      = Cert.Gcn.layer a x W b := by
  funext i
  rw [maximumf_apply, addf_apply, PlainDot.hostDot_apply dot_S100000x128_S128x128_S100000x128_1_0_0_1_n_n rfl,
    bias128_apply, zeros_apply]
  rfl

/-- The host's classifier is the network's. -/
theorem head_eq (x : FVec Ideal S100000x128 .f32) (U : FVec Ideal S128x64 .f32) (u : FVec Ideal S64 .f32)
    (Vm : FVec Ideal S64x2 .f32) (v : FVec Ideal S2 .f32)
    (hu1 : S64.BroadcastsInDim S1x64 ![1]) (hu2 : S1x64.BroadcastsInDim S100000x64 ![0, 1])
    (hz : S_.BroadcastsInDim S100000x64 ![])
    (hv1 : S2.BroadcastsInDim S1x2 ![1]) (hv2 : S1x2.BroadcastsInDim S100000x2 ![0, 1]) :
    addf (Host.dotGeneral dot_S100000x64_S64x2_S100000x2_1_0_0_1_n_n none
        (maximumf (addf (Host.dotGeneral dot_S100000x128_S128x64_S100000x64_1_0_0_1_n_n none x U)
            (broadcastInDim S100000x64 ![0, 1] hu2 (broadcastInDim S1x64 ![1] hu1 u)))
          (broadcastInDim S100000x64 ![] hz (constant (F := Ideal) S_ .f32 0x00000000#32))) Vm)
      (broadcastInDim S100000x2 ![0, 1] hv2 (broadcastInDim S1x2 ![1] hv1 v))
      = Cert.Gcn.head x U u Vm v := by
  funext i
  rw [addf_apply, PlainDot.hostDot_apply dot_S100000x64_S64x2_S100000x2_1_0_0_1_n_n rfl, bias2_apply]
  refine congrArg₂ (· + ·) (Finset.sum_congr rfl fun k _ => ?_) rfl
  refine congrArg₂ (· * ·) ?_ rfl
  rw [maximumf_apply, addf_apply, PlainDot.hostDot_apply dot_S100000x128_S128x64_S100000x64_1_0_0_1_n_n rfl,
    bias64_apply, zeros_apply]

/-! ## The aggregate, and the whole result -/

/-- The host's aggregate of a node array: the rows the edge list names as sources (a negative index counted from the
    end), each scaled by its edge's weight, scatter-added into a zero array at the rows the edge list names as targets. -/
def agg (x : FVec Ideal S100000x128 .f32) (ei : IVec S2x1600000 32) (ew : FVec Ideal S1600000 .f32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast _ (extractStridedSlice S1x1600000 ![1, 0] ei slices_S2x1600000_S1x1600000_1_0) shapeCasts_S1x1600000_S1600000))
    (mulf (Host.gather gather_S100000x128_S1600000x1_S1600000x128_1_0_n_n_0_1_1128 x
        (broadcastInDim S1600000x1 ![0] bcast_S1600000_S1600000x1_0
          (select
            (cmpi .slt (shapeCast _ (extractStridedSlice S1x1600000 ![0, 0] ei slices_S2x1600000_S1x1600000_0_0) shapeCasts_S1x1600000_S1600000)
              (broadcastInDim S1600000 ![] bcast_S_S1600000 (constantI S_ 32 0#32)))
            (addi (shapeCast _ (extractStridedSlice S1x1600000 ![0, 0] ei slices_S2x1600000_S1x1600000_0_0) shapeCasts_S1x1600000_S1600000)
              (broadcastInDim S1600000 ![] bcast_S_S1600000 (constantI S_ 32 100000#32)))
            (shapeCast _ (extractStridedSlice S1x1600000 ![0, 0] ei slices_S2x1600000_S1x1600000_0_0) shapeCasts_S1x1600000_S1600000))))
      (broadcastInDim S1600000x128 ![0, 1] bcast_S1600000x1_S1600000x128_0_1
        (broadcastInDim S1600000x1 ![0] bcast_S1600000_S1600000x1_0 ew)))

/-- The reference's result, as a function of its arguments, is the network over the host's aggregate. -/
theorem result_eq (x0 : FVec Ideal S100000x128 .f32) (ei : IVec S2x1600000 32) (ew : FVec Ideal S1600000 .f32)
    (W1 : FVec Ideal S128x128 .f32) (b1 : FVec Ideal S128 .f32) (W2 : FVec Ideal S128x128 .f32) (b2 : FVec Ideal S128 .f32)
    (U : FVec Ideal S128x64 .f32) (u : FVec Ideal S64 .f32) (Vm : FVec Ideal S64x2 .f32) (v : FVec Ideal S2 .f32) :
    Read.val_main_v54 (F := Ideal) x0 ei ew W1 b1 W2 b2 U u Vm v
      = Cert.Gcn.net (fun x => agg x ei ew) x0 W1 b1 W2 b2 U u Vm v := by
  have h22 : Read.val_main_v22 (F := Ideal) x0 ei ew W1 b1 = Cert.Gcn.layer (agg x0 ei ew) x0 W1 b1 :=
    layer_eq (agg x0 ei ew) x0 W1 b1 _ _ _
  have h45 : Read.val_main_v45 (F := Ideal) x0 ei ew W1 b1 W2 b2
      = Cert.Gcn.layer (agg (Read.val_main_v22 (F := Ideal) x0 ei ew W1 b1) ei ew) (Read.val_main_v22 (F := Ideal) x0 ei ew W1 b1) W2 b2 :=
    layer_eq (agg (Read.val_main_v22 (F := Ideal) x0 ei ew W1 b1) ei ew) (Read.val_main_v22 (F := Ideal) x0 ei ew W1 b1) W2 b2 _ _ _
  have h54 : Read.val_main_v54 (F := Ideal) x0 ei ew W1 b1 W2 b2 U u Vm v
      = Cert.Gcn.head (Read.val_main_v45 (F := Ideal) x0 ei ew W1 b1 W2 b2) U u Vm v :=
    head_eq (Read.val_main_v45 (F := Ideal) x0 ei ew W1 b1 W2 b2) U u Vm v _ _ _ _ _
  rw [h54, h45, h22]
  rfl

end Cert.ReferenceIdeal.RefNet

end
-- ==== Proof.lean ====
/-
  Two rounds of graph aggregation with a dense layer each, then a two-layer classifier: the kernel program against its
  host reference, on the extended reals.

  Both programs compute, from a node array `x`, an edge list, edge weights and four weight matrices with their biases,

      x₁ = layer (agg x) x W₁ b₁,   x₂ = layer (agg x₁) x₁ W₂ b₂,   result = head x₂ U u V v,

  where `agg` is the same host computation in both (gather the source rows, scale by the edge weights, scatter-add at the
  target rows), `layer a x W b (r, c) = max (∑ₖ (a (r, k) + x (r, k)) · W (k, c) + b c) 0` and
  `head x U u V v (r, c) = ∑ₖ max (∑ⱼ x (r, j) · U (j, k) + u k) 0 · V (k, c) + v c` (Proof/GcnSpec.lean).

  The kernel program runs each dense stage as a kernel region over twenty row blocks: the body narrows its operands to a
  shorter float format (the identity on the extended reals), multiplies into a zero accumulator (the plain sum over the
  contracted coordinate), adds the bias row and takes the maximum with zero (Proof/KernelBody.lean); the blocks tile the
  arrays, so each region leaves the whole-array function of what it finds (Proof/RegionValue.lean), and following the
  buffers through the host stretches and the regions gives the network of the arguments (Proof/KernelRun.lean). The
  reference's host operations are the same formulas index by index (Proof/RefNet.lean). No law used needs finiteness:
  the two sides are the same sums of the same products in the same order, so the precondition is never opened.
-/
import proofs.«148782_j43499428774647_1_alg».proof.Defs
import proofs.«148782_j43499428774647_1_alg».proof.Proof.Gen.Kernel
import proofs.«148782_j43499428774647_1_alg».proof.Proof.Gen.Kernel.Skeleton
import proofs.«148782_j43499428774647_1_alg».proof.Proof.Gen.Kernel.Launch
import proofs.«148782_j43499428774647_1_alg».proof.Proof.Gen.Kernel.Points
import proofs.«148782_j43499428774647_1_alg».proof.Proof.Gen.Kernel.Frame
import proofs.«148782_j43499428774647_1_alg».proof.Proof.Gen.KernelIdeal
import proofs.«148782_j43499428774647_1_alg».proof.Proof.Gen.KernelIdeal.Skeleton
import proofs.«148782_j43499428774647_1_alg».proof.Proof.Gen.KernelIdeal.Launch
import proofs.«148782_j43499428774647_1_alg».proof.Proof.Gen.KernelIdeal.Points
import proofs.«148782_j43499428774647_1_alg».proof.Proof.Gen.KernelIdeal.Frame
import proofs.«148782_j43499428774647_1_alg».proof.Proof.Gen.ReferenceIdeal
import proofs.«148782_j43499428774647_1_alg».proof.Proof.Gen.ReferenceIdeal.Run
import proofs.«148782_j43499428774647_1_alg».proof.Proof.Gen.ReferenceIdeal.Read
import proofs.«148782_j43499428774647_1_alg».proof.Proof.Gen.Pre_finite_inputs
import proofs.«148782_j43499428774647_1_alg».proof.Proof.KernelRun
import proofs.«148782_j43499428774647_1_alg».proof.Proof.RefNet
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two aggregates are one host computation: the same operations over dimension records with the same fields. -/
theorem agg_eq (x : FVec Ideal Cert.KernelIdeal.S100000x128 .f32) (ei : IVec Cert.KernelIdeal.S2x1600000 32)
    (ew : FVec Ideal Cert.KernelIdeal.S1600000 .f32) :
    Cert.ReferenceIdeal.RefNet.agg x ei ew = Cert.KernelIdeal.NetRun.agg x ei ew := rfl

/-- From memories agreeing on the arguments both programs end with the network of the arguments in their result
    buffers, and keep their arguments. -/
theorem algebraic : Cert.algebraic_KernelIdeal_ReferenceIdeal := by
  intro m ρ m' ρ' _ hagree
  refine ⟨fun c => Cert.Gcn.net (fun x => Cert.KernelIdeal.NetRun.agg x (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.NetRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v54_eq, Cert.ReferenceIdeal.RefNet.result_eq, e0, e1, e2, e3, e4, e5, e6, e7, e8, e9, e10]
  exact congrArg (fun g => Cert.Gcn.net g _ _ _ _ _ _ _ _ _) (funext fun x => agg_eq x _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
